-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S20000x32 : Shape := ⟨2, ![20000, 32]⟩
abbrev S256x256 : Shape := ⟨2, ![256, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S50000x256 .f32) (main_arg1 : IVec S20000x32 32) (main_arg2 : FVec F S256x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S50000x256 : Shape := ⟨2, ![50000, 256]⟩
abbrev S20000x32 : Shape := ⟨2, ![20000, 32]⟩
abbrev S256x256 : Shape := ⟨2, ![256, 256]⟩
abbrev S_ : Shape := ⟨0, ![]⟩
abbrev S20000x32x1 : Shape := ⟨3, ![20000, 32, 1]⟩
abbrev S20000x32x256 : Shape := ⟨3, ![20000, 32, 256]⟩
abbrev S20000x256 : Shape := ⟨2, ![20000, 256]⟩
abbrev S5000x256 : Shape := ⟨2, ![5000, 256]⟩
abbrev S20000x1x256 : Shape := ⟨3, ![20000, 1, 256]⟩

abbrev nBuf : Space → Nat
  | .hbm => 31
  | .vmem => 5
  | .smem => 0
  | _ => 0

abbrev bufTy : (tb : Table) → Fin (tcTables nBuf tb) → BufTy
  | .hbm, ⟨0, _⟩ => ⟨S50000x256, .f32⟩
  | .hbm, ⟨1, _⟩ => ⟨S20000x32, .i32⟩
  | .hbm, ⟨2, _⟩ => ⟨S256x256, .f32⟩
  | .hbm, ⟨3, _⟩ => ⟨S_, .i32⟩
  | .hbm, ⟨4, _⟩ => ⟨S20000x32, .i32⟩
  | .hbm, ⟨5, _⟩ => ⟨S20000x32, .i1⟩
  | .hbm, ⟨6, _⟩ => ⟨S_, .i32⟩
  | .hbm, ⟨7, _⟩ => ⟨S20000x32, .i32⟩
  | .hbm, ⟨8, _⟩ => ⟨S20000x32, .i32⟩
  | .hbm, ⟨9, _⟩ => ⟨S20000x32, .i32⟩
  | .hbm, ⟨10, _⟩ => ⟨S20000x32x1, .i32⟩
  | .hbm, ⟨11, _⟩ => ⟨S20000x32x256, .f32⟩
  | .hbm, ⟨12, _⟩ => ⟨S_, .f32⟩
  | .hbm, ⟨13, _⟩ => ⟨S20000x256, .f32⟩
  | .hbm, ⟨14, _⟩ => ⟨S20000x256, .f32⟩
  | .hbm, ⟨15, _⟩ => ⟨S_, .f32⟩
  | .hbm, ⟨16, _⟩ => ⟨S50000x256, .f32⟩
  | .hbm, ⟨17, _⟩ => ⟨S20000x1x256, .f32⟩
  | .hbm, ⟨18, _⟩ => ⟨S_, .i32⟩
  | .hbm, ⟨19, _⟩ => ⟨S20000x32, .i32⟩
  | .hbm, ⟨20, _⟩ => ⟨S20000x32, .i1⟩
  | .hbm, ⟨21, _⟩ => ⟨S_, .i32⟩
  | .hbm, ⟨22, _⟩ => ⟨S20000x32, .i32⟩
  | .hbm, ⟨23, _⟩ => ⟨S20000x32, .i32⟩
  | .hbm, ⟨24, _⟩ => ⟨S20000x32, .i32⟩
  | .hbm, ⟨25, _⟩ => ⟨S20000x32x1, .i32⟩
  | .hbm, ⟨26, _⟩ => ⟨S20000x32x256, .f32⟩
  | .hbm, ⟨27, _⟩ => ⟨S50000x256, .f32⟩
  | .hbm, ⟨28, _⟩ => ⟨S_, .f32⟩
  | .hbm, ⟨29, _⟩ => ⟨S50000x256, .f32⟩
  | .hbm, ⟨30, _⟩ => ⟨S50000x256, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S20000x32 : S_.BroadcastsInDim S20000x32 (![] : Fin 0 → Fin S20000x32.rank)
  bcast_S20000x32_S20000x32x1_0_1 : S20000x32.BroadcastsInDim S20000x32x1 (![0, 1] : Fin 2 → Fin S20000x32x1.rank)
  reducesTo_S20000x32x256_S20000x256_d1 : S20000x32x256.ReducesTo [1] S20000x256
  h_S_ : 0 < S_.numel
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S_S50000x256 : S_.BroadcastsInDim S50000x256 (![] : Fin 0 → Fin S50000x256.rank)
  bcast_S20000x256_S20000x1x256_0_2 : S20000x256.BroadcastsInDim S20000x1x256 (![0, 2] : Fin 2 → Fin S20000x1x256.rank)
  bcast_S20000x1x256_S20000x32x256_0_1_2 : S20000x1x256.BroadcastsInDim S20000x32x256 (![0, 1, 2] : Fin 3 → Fin S20000x32x256.rank)
  gather_S50000x256_S20000x32x1_S20000x32x256_2_0_n_n_0_2_1256_wf : GatherDims.WF S50000x256 S20000x32x1 S20000x32x256 [2] [0] [] [0] [] 2 ![1, 256]
  dot_S5000x256_S256x256_S5000x256_1_0_0_1_n_n_wf : DotDims.WF S5000x256 S256x256 S5000x256 [1] [0] [0] [1] [] []
  scatter_S50000x256_S20000x32x1_S20000x32x256_2_0_0_2_wf : ScatterDims.WF S50000x256 S20000x32x1 S20000x32x256 [2] [0] [0] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S20000x256.size a
  hwx0_0 : ∀ i : grid0.Coords, EltTy.bits .f32 = 32 ∨ (Rect.block (s := S20000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S20000x256.size a
  hwx0_2 : ∀ i : grid0.Coords, EltTy.bits .f32 = 32 ∨ (Rect.block (s := S20000x256) S5000x256.size (cc0_transform_2 i) (hinb0_2 i)).WholeWords (EltTy.packing .f32)

variable [Facts₀]

def gather_S50000x256_S20000x32x1_S20000x32x256_2_0_n_n_0_2_1256 : GatherDims S50000x256 S20000x32x1 S20000x32x256 where
  offsetDims := [2]
  collapsedSliceDims := [0]
  operandBatchingDims := []
  startIndicesBatchingDims := []
  startIndexMap := [0]
  indexVectorDim := 2
  sliceSizes := ![1, 256]
  wf := gather_S50000x256_S20000x32x1_S20000x32x256_2_0_n_n_0_2_1256_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S50000x256_S20000x32x1_S20000x32x256_2_0_0_2 : ScatterDims S50000x256 S20000x32x1 S20000x32x256 where
  updateWindowDims := [2]
  insertedWindowDims := [0]
  scatterDimsToOperandDims := [0]
  indexVectorDim := 2
  wf := scatter_S50000x256_S20000x32x1_S20000x32x256_2_0_0_2_wf

abbrev win0_0 : Pipeline.Window sig grid0 :=
  Pipeline.Window.ofSpec (Memref.whole main_v7) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x256 : Shape := ⟨2, ![50000, 256]⟩
abbrev S20000x32 : Shape := ⟨2, ![20000, 32]⟩
abbrev S256x256 : Shape := ⟨2, ![256, 256]⟩
abbrev S_ : Shape := ⟨0, ![]⟩
abbrev S20000x32x1 : Shape := ⟨3, ![20000, 32, 1]⟩
abbrev S20000x32x256 : Shape := ⟨3, ![20000, 32, 256]⟩
abbrev S20000x256 : Shape := ⟨2, ![20000, 256]⟩
abbrev S20000x1x256 : Shape := ⟨3, ![20000, 1, 256]⟩

abbrev nBuf : Space → Nat
  | .hbm => 31
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S20000x32, .i32⟩
  | .hbm, ⟨2, _⟩ => ⟨S256x256, .f32⟩
  | .hbm, ⟨3, _⟩ => ⟨S_, .i32⟩
  | .hbm, ⟨4, _⟩ => ⟨S20000x32, .i32⟩
  | .hbm, ⟨5, _⟩ => ⟨S20000x32, .i1⟩
  | .hbm, ⟨6, _⟩ => ⟨S_, .i32⟩
  | .hbm, ⟨7, _⟩ => ⟨S20000x32, .i32⟩
  | .hbm, ⟨8, _⟩ => ⟨S20000x32, .i32⟩
  | .hbm, ⟨9, _⟩ => ⟨S20000x32, .i32⟩
  | .hbm, ⟨10, _⟩ => ⟨S20000x32x1, .i32⟩
  | .hbm, ⟨11, _⟩ => ⟨S20000x32x256, .f32⟩
  | .hbm, ⟨12, _⟩ => ⟨S_, .f32⟩
  | .hbm, ⟨13, _⟩ => ⟨S20000x256, .f32⟩
  | .hbm, ⟨14, _⟩ => ⟨S_, .f32⟩
  | .hbm, ⟨15, _⟩ => ⟨S50000x256, .f32⟩
  | .hbm, ⟨16, _⟩ => ⟨S20000x1x256, .f32⟩
  | .hbm, ⟨17, _⟩ => ⟨S_, .i32⟩
  | .hbm, ⟨18, _⟩ => ⟨S20000x32, .i32⟩
  | .hbm, ⟨19, _⟩ => ⟨S20000x32, .i1⟩
  | .hbm, ⟨20, _⟩ => ⟨S_, .i32⟩
  | .hbm, ⟨21, _⟩ => ⟨S20000x32, .i32⟩
  | .hbm, ⟨22, _⟩ => ⟨S20000x32, .i32⟩
  | .hbm, ⟨23, _⟩ => ⟨S20000x32, .i32⟩
  | .hbm, ⟨24, _⟩ => ⟨S20000x32x1, .i32⟩
  | .hbm, ⟨25, _⟩ => ⟨S20000x32x256, .f32⟩
  | .hbm, ⟨26, _⟩ => ⟨S50000x256, .f32⟩
  | .hbm, ⟨27, _⟩ => ⟨S50000x256, .f32⟩
  | .hbm, ⟨28, _⟩ => ⟨S_, .f32⟩
  | .hbm, ⟨29, _⟩ => ⟨S50000x256, .f32⟩
  | .hbm, ⟨30, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  bcast_S_S20000x32 : S_.BroadcastsInDim S20000x32 (![] : Fin 0 → Fin S20000x32.rank)
  bcast_S20000x32_S20000x32x1_0_1 : S20000x32.BroadcastsInDim S20000x32x1 (![0, 1] : Fin 2 → Fin S20000x32x1.rank)
  reducesTo_S20000x32x256_S20000x256_d1 : S20000x32x256.ReducesTo [1] S20000x256
  h_S_ : 0 < S_.numel
  bcast_S_S50000x256 : S_.BroadcastsInDim S50000x256 (![] : Fin 0 → Fin S50000x256.rank)
  bcast_S20000x256_S20000x1x256_0_2 : S20000x256.BroadcastsInDim S20000x1x256 (![0, 2] : Fin 2 → Fin S20000x1x256.rank)
  bcast_S20000x1x256_S20000x32x256_0_1_2 : S20000x1x256.BroadcastsInDim S20000x32x256 (![0, 1, 2] : Fin 3 → Fin S20000x32x256.rank)
  gather_S50000x256_S20000x32x1_S20000x32x256_2_0_n_n_0_2_1256_wf : GatherDims.WF S50000x256 S20000x32x1 S20000x32x256 [2] [0] [] [0] [] 2 ![1, 256]
  scatter_S50000x256_S20000x32x1_S20000x32x256_2_0_0_2_wf : ScatterDims.WF S50000x256 S20000x32x1 S20000x32x256 [2] [0] [0] 2
  dot_S50000x256_S256x256_S50000x256_1_0_0_1_n_n_wf : DotDims.WF S50000x256 S256x256 S50000x256 [1] [0] [0] [1] [] []

variable [Facts₀]

def gather_S50000x256_S20000x32x1_S20000x32x256_2_0_n_n_0_2_1256 : GatherDims S50000x256 S20000x32x1 S20000x32x256 where
  offsetDims := [2]
  collapsedSliceDims := [0]
  operandBatchingDims := []
  startIndicesBatchingDims := []
  startIndexMap := [0]
  indexVectorDim := 2
  sliceSizes := ![1, 256]
  wf := gather_S50000x256_S20000x32x1_S20000x32x256_2_0_n_n_0_2_1256_wf
def scatter_S50000x256_S20000x32x1_S20000x32x256_2_0_0_2 : ScatterDims S50000x256 S20000x32x1 S20000x32x256 where
  updateWindowDims := [2]
  insertedWindowDims := [0]
  scatterDimsToOperandDims := [0]
  indexVectorDim := 2
  wf := scatter_S50000x256_S20000x32x1_S20000x32x256_2_0_0_2_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.EdgeProduct.lean ====
/-
  What the tiled matrix product leaves in its output array.

  The kernel multiplies a [20000, 256] array of rows by a [256, 256] matrix, 5000 rows at a time: at each of the 4
  points the block of 5000 rows is multiplied by the whole matrix into a zero accumulator (the operands rounded to
  bf16 on the way in, which on the extended reals is the identity) and written back as the same 5000 rows of the
  result. Row `r` of block `t` is row `5000 t + r` of the array and the matrix is the same at every point, so block
  `t` of the result is block `t` of ONE function of the two arrays,

      rowsTimes a wt (i, j) = ∑ k, a (i, k) * wt (k, j),

  and the 4 blocks tile the 20000 rows: the output array ends holding `rowsTimes` of the two input arrays as the
  region finds them.
-/
import proofs.«139676_j10299331576565_2_alg».proof.Proof.Gen.KernelIdeal.Frame
import proofs.«139676_j10299331576565_2_alg».proof.Proof.LibMatmulPlain
import Idealize.ShloMosaic.Lib.Pipeline.Value
import Idealize.ShloMosaic.Lib.ValueIdx

noncomputable section

open scoped BigOperators

namespace Cert.KernelIdeal.EdgeProduct

open Idealize.ShloMosaic Idealize.ShloMosaic.TcCoe Idealize.ShloMosaic.ValueIdx Idealize.SL.Sem
open Cert.KernelIdeal Cert.KernelIdeal.Gen
open Idealize.ShloMosaic.Pipeline (Dat)

/-- The rows of `a` times the matrix `wt`, entry by entry, on the extended reals. -/
def rowsTimes (a : FVec Ideal S20000x256 .f32) (wt : FVec Ideal S256x256 .f32) : FVec Ideal S20000x256 .f32 :=
  fun i => ∑ k : Fin 256, a (ix2 (i 0) k) * wt (ix2 k (i 1))

/-- One block's product at an entry: the sum over the contracted axis of the block's row against the matrix's column.
    The roundings to bf16 and the cast between equal shapes are the identity on the extended reals. -/
theorem block_product (x0 : Vec Ideal S5000x256 .f32) (x1 : Vec Ideal S256x256 .f32) (r : Fin 5000) (q : Fin 256) :
    k0_pay1 (F := Ideal) x0 x1 (ix2 r q) = ∑ k : Fin 256, x0 (ix2 r k) * x1 (ix2 k q) := by
  unfold k0_pay1
  refine (Cert.LibMatmulPlain.matmul_zero_apply dot_S5000x256_S256x256_S5000x256_1_0_0_1_n_n rfl rfl rfl rfl rfl rfl
    none _ _ r q).trans ?_
  refine Finset.sum_congr rfl fun k _ => ?_
  refine congrArg (· * x1 (ix2 k q)) ?_
  exact congrFun (shapeCast_self x0 shapeCasts_S5000x256_S5000x256) (ix2 r k)

theorem zero_offsets : (![0, 0] : Fin 2 → Nat) = fun _ => 0 := funext fun a => by fin_cases a <;> rfl

/-- The printed index maps, decided over the 4 points: the row blocks of the input and of the output move together,
    one block per point, and the matrix and every column block stay at block 0. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 3 :=
  (by decide +kernel : ∀ t : Fin grid0.N, _)

/-- Every one of the 4 row blocks is some point's. -/
theorem block_onto : ∀ b : Fin 4, ∃ t : Fin cfg0.N, win0_2.index t (0 : Fin 2) = b.val ∧ win0_2.index t (1 : Fin 2) = 0 :=
  (by decide +kernel : ∀ b : Fin 4, ∃ t : Fin grid0.N, win0_2.index t (0 : Fin 2) = b.val ∧ win0_2.index t (1 : Fin 2) = 0)

variable (m : (ℓ : Loc nD τ sig) → Buf (Elt Ideal) ℓ)

/-- What point `t` writes back is block `t` of the rows-times-matrix function of the two arrays. -/
theorem flushed_eq (c : Dev nD) (t : Fin cfg0.N) :
    (dats m 0 c).flushed 2 t
      = ((cfg0.win 2).blk t).view.read (Elt Ideal) (rowsTimes (V m c main_v7) (V m c main_arg2)) := by
  show (cfg0.win 2).cut (grid0.coords t) ((dats m 0 c).after 2 t) = _
  rw [after0_2]
  unfold out0_2
  rw [View.canon_unit_zero zero_offsets]
  simp only [View.ld_unit_zero (S := S5000x256) zero_offsets, View.ld_unit_zero (S := S256x256) zero_offsets]
  obtain ⟨e0, e1, e2, e3, e4, -⟩ := block_indices t
  funext j
  obtain ⟨r, q, rfl⟩ : ∃ (r : Fin 5000) (q : Fin 256), j = ix2 r q := ⟨j 0, j 1, eq_ix2 j⟩
  show k0_pay1 (F := Ideal) (iblk m c 0 t) (iblk m c 1 t) (ix2 r q)
    = rowsTimes (V m c main_v7) (V m c main_arg2) (((cfg0.win 2).blk t).view.emb (ix2 r q))
  refine (block_product (iblk m c 0 t) (iblk m c 1 t) r q).trans ?_
  unfold rowsTimes
  refine Finset.sum_congr rfl fun k _ => ?_
  have h0 : ((cfg0.win 0).blk t).view.emb (ix2 r k)
      = ix2 (((cfg0.win 2).blk t).view.emb (ix2 r q) 0) k := by
    funext a; apply Fin.ext
    match a with
    | ⟨0, _⟩ =>
      show win0_0.index t (0 : Fin 2) * 5000 + 1 * r.val = win0_2.index t (0 : Fin 2) * 5000 + 1 * r.val
      omega
    | ⟨1, _⟩ =>
      show win0_0.index t (1 : Fin 2) * 256 + 1 * k.val = k.val
      omega
  have h1 : ((cfg0.win 1).blk t).view.emb (ix2 k q)
      = ix2 k (((cfg0.win 2).blk t).view.emb (ix2 r q) 1) := by
    funext a; apply Fin.ext
    match a with
    | ⟨0, _⟩ =>
      show win0_1.index t (0 : Fin 2) * 256 + 1 * k.val = k.val
      omega
    | ⟨1, _⟩ =>
      show win0_1.index t (1 : Fin 2) * 256 + 1 * q.val = win0_2.index t (1 : Fin 2) * 256 + 1 * q.val
      omega
  have a0 : (iblk m c 0 t : Vec Ideal S5000x256 .f32) (ix2 r k)
      = (V m c main_v7 : FVec Ideal S20000x256 .f32) (ix2 (((cfg0.win 2).blk t).view.emb (ix2 r q) 0) k) :=
    congrArg (V m c main_v7 : FVec Ideal S20000x256 .f32) h0
  have a1 : (iblk m c 1 t : Vec Ideal S256x256 .f32) (ix2 k q)
      = (V m c main_arg2 : FVec Ideal S256x256 .f32) (ix2 k (((cfg0.win 2).blk t).view.emb (ix2 r q) 1)) :=
    congrArg (V m c main_arg2 : FVec Ideal S256x256 .f32) h1
  exact congr (congrArg (fun u v : EReal => u * v) a0) a1

/-- An index of the array is in point `t`'s block iff each coordinate is in the block's range on its axis. -/
theorem mem_block (t : Fin cfg0.N) (i : S20000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v8).slice (win0_2.rect t)).set ↔ _
  rw [View.set_slice_whole, Rect.mem_set_unit]
  exact Iff.rfl

/-- The 4 blocks of 5000 rows tile the 20000 rows: row `i` is in block `i / 5000`. -/
theorem covered (i : S20000x256.Idx) :
    ∃ t : Fin cfg0.N, (cfg0.win 2).flush t = true ∧ i ∈ ((cfg0.win 2).blk t).view.set := by
  have hi0 : (i 0).val < 20000 := (i 0).isLt
  have hi1 : (i 1).val < 256 := (i 1).isLt
  obtain ⟨t, ht0, ht1⟩ := block_onto ⟨(i 0).val / 5000, by omega⟩
  have ht0' : win0_2.index t (0 : Fin 2) = (i 0).val / 5000 := ht0
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 256 ≤ (i 1).val ∧ (i 1).val < win0_2.index t (1 : Fin 2) * 256 + 256
    omega

/-- The output array after the region: the rows-times-matrix function of the two input arrays as the region finds
    them. -/
theorem final (c : Dev nD) :
    (dats m 0 c).arrAt 2 cfg0.N = rowsTimes (V m c main_v7) (V m c main_arg2) :=
  (dats m 0 c).arrAt_eq_of_cover 2 _ (fun t _ => flushed_eq m c t) covered

end Cert.KernelIdeal.EdgeProduct

end
-- ==== Proof.HostSide.lean ====
/-
  The host program around the tiled product, and the kernel program's run read back.

  Before the region the host turns the [20000, 32] array of node numbers into row numbers (a negative number wraps
  round by adding 50000), gathers the rows of `x` they name and sums the 32 rows of each hyperedge: `edgeSums`. The region
  multiplies those sums by the weight matrix (`EdgeProduct.rowsTimes`). After the region the host repeats each projected
  sum 32 times along a new middle axis (`spread`), scatters them with accumulation into an array of zeros at the same row
  numbers (`scattered`), and takes the maximum with zero (`result`).

  The frame run gives every array of the pipeline and every other buffer after the lines that follow the region; read at
  the result buffer, with the product's array at its closed form, that is `result` of the node numbers and of the product
  of the edge sums by the weights — a function of the three argument arrays alone.
-/
import proofs.«139676_j10299331576565_2_alg».proof.Proof.EdgeProduct
import Idealize.ShloMosaic.Lib.StableHlo.Run

noncomputable section

namespace Cert.KernelIdeal.HostSide

open Idealize.ShloMosaic Idealize.ShloMosaic.TcCoe Idealize.ShloMosaic.ValueIdx Idealize.SL.Sem
open Cert.KernelIdeal Cert.KernelIdeal.Gen Cert.KernelIdeal.EdgeProduct Idealize.ShloMosaic.StableHlo

/-- The row numbers: a negative node number has 50000 added, and the array gets a trailing unit axis. -/
def rowNumbers (x1 : IVec S20000x32 32) : IVec S20000x32x1 32 :=
  broadcastInDim S20000x32x1 ![0, 1] bcast_S20000x32_S20000x32x1_0_1
    (select (cmpi .slt x1 (broadcastInDim S20000x32 ![] bcast_S_S20000x32 (constantI S_ 32 0#32)))
      (addi x1 (broadcastInDim S20000x32 ![] bcast_S_S20000x32 (constantI S_ 32 50000#32))) x1)

/-- Per hyperedge, the sum of the 32 gathered rows of `x0`. -/
def edgeSums (x0 : FVec Ideal S50000x256 .f32) (x1 : IVec S20000x32 32) : FVec Ideal S20000x256 .f32 :=
  Host.reduceAdd (Host.gather gather_S50000x256_S20000x32x1_S20000x32x256_2_0_n_n_0_2_1256 x0 (rowNumbers x1))
    (constant S_ .f32 0x00000000#32) reducesTo_S20000x32x256_S20000x256_d1 h_S_

/-- An array of zeros. -/
def zeros : FVec Ideal S50000x256 .f32 :=
  broadcastInDim S50000x256 ![] bcast_S_S50000x256 (constant S_ .f32 0x00000000#32)

/-- Each row repeated 32 times along a new middle axis. -/
def spread (a : FVec Ideal S20000x256 .f32) : FVec Ideal S20000x32x256 .f32 :=
  broadcastInDim S20000x32x256 ![0, 1, 2] bcast_S20000x1x256_S20000x32x256_0_1_2
    (broadcastInDim S20000x1x256 ![0, 2] bcast_S20000x256_S20000x1x256_0_2 a)

/-- The rows `p` added into an array of zeros, row `e` once at each of the 32 row numbers of hyperedge `e`. -/
def scattered (x1 : IVec S20000x32 32) (p : FVec Ideal S20000x256 .f32) : FVec Ideal S50000x256 .f32 :=
  Host.scatterAdd scatter_S50000x256_S20000x32x1_S20000x32x256_2_0_0_2 zeros (rowNumbers x1) (spread p)

/-- The rectified scatter. -/
def result (x1 : IVec S20000x32 32) (p : FVec Ideal S20000x256 .f32) : FVec Ideal S50000x256 .f32 :=
  maximumf (scattered x1 p) zeros

/-- The repeated rows at an entry. -/
theorem spread_apply (a : FVec Ideal S20000x256 .f32) (e : Fin 20000) (k : Fin 32) (c : Fin 256) :
    spread a (ix3 e k c) = a (ix2 e c) := by
  unfold spread
  rw [broadcastInDim_apply _ bcast_S20000x1x256_S20000x32x256_0_1_2 _ (ix3 e k c) (ix3 e 0 c) (fun a => match a with
      | ⟨0, _⟩ => by show e.val = if (20000 : Nat) = 1 then 0 else e.val; rw [if_neg (by decide)]
      | ⟨1, _⟩ => by show 0 = if (1 : Nat) = 1 then 0 else k.val; rw [if_pos rfl]
      | ⟨2, _⟩ => by show c.val = if (256 : Nat) = 1 then 0 else c.val; rw [if_neg (by decide)]),
    broadcastInDim_apply _ bcast_S20000x256_S20000x1x256_0_2 a (ix3 e 0 c) (ix2 e c) (fun a => match a with
      | ⟨0, _⟩ => by show e.val = if (20000 : Nat) = 1 then 0 else e.val; rw [if_neg (by decide)]
      | ⟨1, _⟩ => by show c.val = if (256 : Nat) = 1 then 0 else c.val; rw [if_neg (by decide)])]

/-- An entry of the array of zeros is zero. -/
theorem zeros_apply (i : S50000x256.Idx) : zeros i = 0 := by
  unfold zeros
  rw [broadcastInDim_apply _ bcast_S_S50000x256 _ i ix0 (fun a => a.elim0)]
  exact Ideal.ofBits_zero_f32

variable (m : (ℓ : Loc nD τ sig) → Buf (Elt Ideal) ℓ)

/-- The region finds the edge sums of the argument arrays in its first input array. -/
theorem entry_edgeSums (c : Dev nD) :
    V m c main_v7 = edgeSums (m ((c.tc : Thread nD τ).loc main_arg0)) (m ((c.tc : Thread nD τ).loc main_arg1)) := by
  show StableHlo.after hostOps0 (fun b => m (c, b)) (Proc.devRef .tc main_v7) = _
  after_results
  rfl

/-- The result buffer after the lines that follow the region. -/
theorem tail_result (c : Dev nD) :
    Pipeline.afterTail₀ cfgs (dats m) 0 (V0 m) [hostOps1, hostOps1_1] c main_v19
      = result (m ((c.tc : Thread nD τ).loc main_arg1))
          (rowsTimes (edgeSums (m ((c.tc : Thread nD τ).loc main_arg0)) (m ((c.tc : Thread nD τ).loc main_arg1)))
            (m ((c.tc : Thread nD τ).loc main_arg2))) := by
  have e1 : Pipeline.withArrays (cfgs 0).spec c (V0 m c) (fun w => (dats m 0 c).arrAt w (cfgs 0).N)
      (Proc.devRef .tc main_arg1) = m ((c.tc : Thread nD τ).loc main_arg1) :=
    (Pipeline.withArrays_of_ne _ c (V0 m c) _ main_arg1
      (by exact (by decide : ∀ w, Pipeline.arrRef spec0 w ≠ main_arg1))).trans (V_main_arg1 m c)
  have e8 : Pipeline.withArrays (cfgs 0).spec c (V0 m c) (fun w => (dats m 0 c).arrAt w (cfgs 0).N)
      (Proc.devRef .tc main_v8)
        = rowsTimes (edgeSums (m ((c.tc : Thread nD τ).loc main_arg0)) (m ((c.tc : Thread nD τ).loc main_arg1)))
            (m ((c.tc : Thread nD τ).loc main_arg2)) := by
    refine (Pipeline.withArrays_arr spec0 launch0.win.arr_inj c _ _ 2).trans ?_
    rw [final m c, entry_edgeSums m c, V_main_arg2 m c]
  unfold Pipeline.afterTail₀
  simp only [hostOps1, hostOps1_1, List.flatten_cons, List.flatten_nil, List.append_nil, List.cons_append,
    List.nil_append]
  after_results
  rw [e1, e8]
  rfl

end Cert.KernelIdeal.HostSide

end
-- ==== Proof.KernelRun.lean ====
/-
  The kernel program's run, every result named.

  The generated frame run ends with each array of the pipeline and each other buffer at what the proof data and the lines
  after the region give. Read at the result buffer (`HostSide.tail_result`) and at the three argument arrays — two of
  them untouched by any host line, the third an input window of the region, which ends as it was found —, that is: every
  weakly fair execution terminates with the result at `result` of the node numbers and of the product of the edge sums by
  the weights, and the arguments unchanged.
-/
import proofs.«139676_j10299331576565_2_alg».proof.Proof.HostSide

noncomputable section

namespace Cert.KernelIdeal.HostSide

open Idealize.ShloMosaic Idealize.ShloMosaic.TcCoe Idealize.SL.Sem
open Cert.KernelIdeal Cert.KernelIdeal.Gen Cert.KernelIdeal.EdgeProduct

theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v19)
          = result (m ((c.tc : Thread nD τ).loc main_arg1))
              (rowsTimes (edgeSums (m ((c.tc : Thread nD τ).loc main_arg0)) (m ((c.tc : Thread nD τ).loc main_arg1)))
                (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v19 (Pipeline.mem_restRefs_of main_v19 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.HostSide

end
-- ==== Proof.LibScatterStack.lean ====
/-
  A scatter-add of a stack of rows, read at an entry.

  The operand is an [N, C] array, the scatter indices an [E, K, 1] array of row numbers, the updates an [E, K, C] stack:
  update (e, k, c) is added into the operand at row `idx(e, k, 0)`, column `c` (dimension numbers: the update's last
  axis is its window axis, the operand's row axis is the inserted one and the one the index names, the index vector
  sits on the last axis of the indices). This is what `zeros((N, C)).at[idx].add(rows[:, None, :])` lowers to for an
  [E, K] array of row numbers.

  Read at entry (n, q) of the result, on the extended reals: the operand's entry plus the sum, over the pairs (e, k) whose
  row number — read signed, not clamped — is n, of the update's entry (e, k, q). A pair whose row number lies outside
  [0, N) lands nowhere. The column of an update is kept, and which row a pair is sent to does not depend on the column:
  that is the whole content of `resultIdx?_eq_some_iff`, and it is what lets a product with a matrix on the columns be
  moved across the scatter.
-/
import Idealize.ShloMosaic.PureOps.Ideal
import Idealize.ShloMosaic.PureOps.Ideal.Laws
import Idealize.ShloMosaic.Lib.ValueIdx

noncomputable section

open scoped BigOperators

namespace Cert.LibScatterStack

open Idealize.ShloMosaic Idealize.ShloMosaic.ValueIdx

variable {N E K C w : Nat}

section Coordinates

variable (d : ScatterDims ⟨2, ![N, C]⟩ ⟨3, ![E, K, 1]⟩ ⟨3, ![E, K, C]⟩)
  (hu : d.updateWindowDims = [2]) (hi : d.insertedWindowDims = [0]) (hs : d.scatterDimsToOperandDims = [0])
  (hv : d.indexVectorDim = 2)

include hu hi hs hv

/-- On the row axis the window of update (e, k, c) starts at the row number stored at (e, k, 0), read signed. -/
theorem start_row (idx : IVec ⟨3, ![E, K, 1]⟩ w) (e : Fin E) (k : Fin K) (c : Fin C) :
    d.start (ix3 e k c) idx 0 = (idx (ix3 e k 0)).toInt := by
  obtain ⟨uw, iw, sd, iv, wf⟩ := d
  simp only at hu hi hs hv
  subst hu hi hs hv
  unfold ScatterDims.start
  rw [dif_pos (List.mem_singleton.2 rfl)]
  refine congrArg (fun z => (idx z).toInt) (funext fun b => ?_)
  match b with
  | ⟨0, _⟩ => rfl
  | ⟨1, _⟩ => rfl
  | ⟨2, _⟩ => rfl

/-- The index names no column: on the column axis every window starts at 0. -/
theorem start_col (idx : IVec ⟨3, ![E, K, 1]⟩ w) (j : (⟨3, ![E, K, C]⟩ : Shape).Idx) : d.start j idx 1 = 0 := by
  obtain ⟨uw, iw, sd, iv, wf⟩ := d
  simp only at hu hi hs hv
  subst hu hi hs hv
  unfold ScatterDims.start
  rw [dif_neg (show ¬ ((1 : Fin 2) ∈ ([0] : List (Fin 2))) by decide)]

/-- The row axis is inserted: the window has no extent along it. -/
theorem window_row (j : (⟨3, ![E, K, C]⟩ : Shape).Idx) : d.window j 0 = 0 := by
  obtain ⟨uw, iw, sd, iv, wf⟩ := d
  simp only at hu hi hs hv
  subst hu hi hs hv
  unfold ScatterDims.window
  split
  · rename_i ha; exact absurd ha (show ¬ ((0 : Fin 2) ∈ ([1] : List (Fin 2))) by decide)
  · rfl

/-- Along the column axis the window coordinate is the update's last coordinate. -/
theorem window_col (j : (⟨3, ![E, K, C]⟩ : Shape).Idx) : d.window j 1 = (j 2).val := by
  obtain ⟨uw, iw, sd, iv, wf⟩ := d
  simp only at hu hi hs hv
  subst hu hi hs hv
  unfold ScatterDims.window
  split
  · rfl
  · rename_i ha; exact absurd (show ((1 : Fin 2) ∈ ([1] : List (Fin 2))) by decide) ha

/-- Update (e, k, c) lands on entry (n, q) exactly when its row number, read signed, is n and its column c is q. -/
theorem resultIdx?_eq_some_iff (idx : IVec ⟨3, ![E, K, 1]⟩ w) (e : Fin E) (k : Fin K) (c : Fin C) (n : Fin N)
    (q : Fin C) :
    d.resultIdx? (ix3 e k c) idx = some (ix2 n q) ↔ (idx (ix3 e k 0)).toInt = (n.val : Int) ∧ c = q := by
  have h0 : d.start (ix3 e k c) idx 0 + (d.window (ix3 e k c) 0 : Int) = (idx (ix3 e k 0)).toInt := by
    rw [start_row d hu hi hs hv, window_row d hu hi hs hv]; simp
  have h1 : d.start (ix3 e k c) idx 1 + (d.window (ix3 e k c) 1 : Int) = (c.val : Int) := by
    rw [start_col d hu hi hs hv, window_col d hu hi hs hv]; exact zero_add _
  unfold ScatterDims.resultIdx?
  split
  · rename_i h
    rw [Option.some.injEq]
    constructor
    · intro hf
      have e0 : (d.start (ix3 e k c) idx 0 + (d.window (ix3 e k c) 0 : Int)).toNat = n.val :=
        congrArg (fun f : (⟨2, ![N, C]⟩ : Shape).Idx => (f 0).val) hf
      have e1 : (d.start (ix3 e k c) idx 1 + (d.window (ix3 e k c) 1 : Int)).toNat = q.val :=
        congrArg (fun f : (⟨2, ![N, C]⟩ : Shape).Idx => (f 1).val) hf
      have hn := (h 0).1
      rw [h0] at e0 hn
      rw [h1] at e1
      refine ⟨by omega, Fin.ext (by omega)⟩
    · rintro ⟨ht, rfl⟩
      funext a
      refine Fin.ext ?_
      match a with
      | ⟨0, _⟩ => show (d.start (ix3 e k c) idx 0 + (d.window (ix3 e k c) 0 : Int)).toNat = n.val; rw [h0, ht]; simp
      | ⟨1, _⟩ => show (d.start (ix3 e k c) idx 1 + (d.window (ix3 e k c) 1 : Int)).toNat = c.val; rw [h1]; simp
  · rename_i h
    constructor
    · intro hf; exact absurd hf (by simp)
    · rintro ⟨ht, rfl⟩
      refine absurd (fun a => ?_) h
      match a with
      | ⟨0, _⟩ =>
        show 0 ≤ d.start (ix3 e k c) idx 0 + (d.window (ix3 e k c) 0 : Int)
          ∧ d.start (ix3 e k c) idx 0 + (d.window (ix3 e k c) 0 : Int) < (N : Int)
        rw [h0, ht]; exact ⟨by omega, by exact_mod_cast n.isLt⟩
      | ⟨1, _⟩ =>
        show 0 ≤ d.start (ix3 e k c) idx 1 + (d.window (ix3 e k c) 1 : Int)
          ∧ d.start (ix3 e k c) idx 1 + (d.window (ix3 e k c) 1 : Int) < (C : Int)
        rw [h1]; exact ⟨by omega, by exact_mod_cast c.isLt⟩

end Coordinates

/-- The pairs (e, k) of the index array whose row number, read signed, is `n`: the updates that land on row `n`. -/
def hits (idx : IVec ⟨3, ![E, K, 1]⟩ w) (n : Fin N) : Finset (Fin E × Fin K) :=
  Finset.univ.filter fun p => (idx (ix3 p.1 p.2 0)).toInt = (n.val : Int)

/-- The scatter-add read at entry (n, q): the operand's entry plus the sum over the pairs landing on row n of the
    update's entry in column q. -/
theorem scatterAdd_apply {φ : FTy} (d : ScatterDims ⟨2, ![N, C]⟩ ⟨3, ![E, K, 1]⟩ ⟨3, ![E, K, C]⟩)
    (hu : d.updateWindowDims = [2]) (hi : d.insertedWindowDims = [0]) (hs : d.scatterDimsToOperandDims = [0])
    (hv : d.indexVectorDim = 2) (x : FVec Ideal ⟨2, ![N, C]⟩ φ) (idx : IVec ⟨3, ![E, K, 1]⟩ w)
    (upd : FVec Ideal ⟨3, ![E, K, C]⟩ φ) (n : Fin N) (q : Fin C) :
    Host.scatterAdd d x idx upd (ix2 n q) = x (ix2 n q) + ∑ p ∈ hits idx n, upd (ix3 p.1 p.2 q) := by
  show Ideal.hostScatterAdd d x idx upd (ix2 n q) = _
  unfold Ideal.hostScatterAdd
  refine congrArg (x (ix2 n q) + ·) ?_
  have key : ∀ j : (⟨3, ![E, K, C]⟩ : Shape).Idx,
      d.resultIdx? j idx = some (ix2 n q) ↔ (idx (ix3 (j 0) (j 1) 0)).toInt = (n.val : Int) ∧ j 2 = q := fun j => by
    conv_lhs => rw [eq_ix3 j]
    exact resultIdx?_eq_some_iff d hu hi hs hv idx (j 0) (j 1) (j 2) n q
  refine Finset.sum_nbij' (fun j => (j 0, j 1)) (fun p => ix3 p.1 p.2 q) ?_ ?_ ?_ ?_ ?_
  · intro j hj
    rw [Finset.mem_filter] at hj
    exact Finset.mem_filter.2 ⟨Finset.mem_univ _, ((key j).1 hj.2).1⟩
  · intro p hp
    have hp' := (Finset.mem_filter.1 hp).2
    exact Finset.mem_filter.2 ⟨Finset.mem_univ _, (key _).2 ⟨hp', rfl⟩⟩
  · intro j hj
    rw [Finset.mem_filter] at hj
    have hq := ((key j).1 hj.2).2
    show ix3 (j 0) (j 1) q = j
    rw [← hq]; exact (eq_ix3 j).symm
  · intro p _; rfl
  · intro j hj
    rw [Finset.mem_filter] at hj
    have hq := ((key j).1 hj.2).2
    show upd j = upd (ix3 (j 0) (j 1) q)
    rw [← hq]; exact congrArg upd (eq_ix3 j)

end Cert.LibScatterStack

end
-- ==== Proof.LibRealSums.lean ====
/-
  The extended reals that are real numbers. They are closed under the operations of the ideal instance that a
  sum-and-scale computation uses (sum, product, maximum, finite sums, the quotient of one by a real that is at least one),
  the bit patterns of zero and of one denote them, and over them a scaled aggregate of matrix products is the matrix
  product of the scaled aggregate: the distributive law, which fails over the extended reals at large (a sum that meets
  both infinities) and holds as soon as every entry is a real number.
-/
import Idealize.ShloMosaic.PureOps.Ideal
import Idealize.ShloMosaic.PureOps.Ideal.Laws
import Idealize.ShloMosaic.Lib.IdealHost
import Mathlib.Algebra.BigOperators.Ring.Finset
import Mathlib.Tactic.Ring
import Mathlib.Tactic.Linarith

namespace Cert.LibRealSums

open Idealize.ShloMosaic

/-- An extended real that is a real number: neither infinity. -/
def IsReal (x : EReal) : Prop := ∃ r : ℝ, x = (r : EReal)

/-- A real number, seen as an extended real, is a real number. -/
theorem isReal_coe (r : ℝ) : IsReal (r : EReal) := ⟨r, rfl⟩

/-- Zero is a real number. -/
theorem isReal_zero : IsReal 0 := ⟨0, EReal.coe_zero.symm⟩

/-- One is a real number. -/
theorem isReal_one : IsReal 1 := ⟨1, EReal.coe_one.symm⟩

/-- The sum of two real numbers is a real number. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is a real number. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The larger of two real numbers is a real number: it is one of the two. -/
theorem isReal_max {x y : EReal} (hx : IsReal x) (hy : IsReal y) : IsReal (max x y) := by
  rcases le_total x y with h | h
  · rw [max_eq_right h]; exact hy
  · rw [max_eq_left h]; exact hx

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The single-precision pattern of zero denotes zero. -/
theorem ofBits_zero : Ideal.ofBits .f32 0x00000000#32 = 0 := Ideal.ofBits_zero_f32

/-- The single-precision pattern `0x3F800000` denotes one. -/
theorem ofBits_one : Ideal.ofBits .f32 0x3F800000#32 = 1 := Ideal.ofBits_one_f32

/-- The single-precision pattern of zero denotes a real number. -/
theorem isReal_ofBits_zero : IsReal (Ideal.ofBits .f32 0x00000000#32) := by
  rw [ofBits_zero]; exact isReal_zero

/-- The single-precision pattern of one denotes a real number. -/
theorem isReal_ofBits_one : IsReal (Ideal.ofBits .f32 0x3F800000#32) := by
  rw [ofBits_one]; exact isReal_one

/-- The inverse degree: the quotient of one by the larger of a real number and one is a real number. The divisor is a
    real that is at least one, so it is not zero, and the quotient is the product with its reciprocal. -/
theorem isReal_invDeg (d : EReal) (hd : IsReal d) : IsReal (Ideal.div 1 (max d 1)) := by
  obtain ⟨m, hm⟩ := isReal_max hd isReal_one
  have h1 : (1 : ℝ) ≤ m := by
    have h : ((1 : ℝ) : EReal) ≤ (m : EReal) := by
      rw [← hm, EReal.coe_one]; exact le_max_right _ _
    exact EReal.coe_le_coe_iff.1 h
  have hne : m ≠ 0 := by linarith
  rw [hm, Ideal.div_coe hne, one_mul]
  exact isReal_coe _

/-- The distributive law of the aggregation. Over real entries, the sum over a set `S` of rows of the matrix products
    `∑ k, a e k * w k`, scaled by `v`, is the matrix product of the scaled sum of the rows: both are the double sum of
    `a e k * v * w k`. The leading zeros are the initial values the two sums start from. -/
theorem agg_law {ι κ : Type} [Fintype κ] (S : Finset ι) (a : ι → κ → EReal) (w : κ → EReal) (v : EReal)
    (ha : ∀ e k, IsReal (a e k)) (hw : ∀ k, IsReal (w k)) (hv : IsReal v) :
    (0 + ∑ e ∈ S, ∑ k, a e k * w k) * v = ∑ k, ((0 + ∑ e ∈ S, a e k) * v) * w k := by
  choose ar har using ha
  choose wr hwr using hw
  obtain ⟨vr, rfl⟩ := hv
  obtain rfl : a = fun e k => (ar e k : EReal) := funext fun e => funext fun k => har e k
  obtain rfl : w = fun k => (wr k : EReal) := funext hwr
  simp only [zero_add, ← EReal.coe_mul, ← coe_sum]
  congr 1
  simp only [Finset.sum_mul]
  rw [Finset.sum_comm]
  exact Finset.sum_congr rfl fun k _ => Finset.sum_congr rfl fun e _ => by ring

end Cert.LibRealSums
-- ==== Proof.ProjectScatter.lean ====
/-
  Projecting before the scatter-add, or after it.

  Rows `a(e, ·)` of an [E, C] array are scattered, with accumulation, into the rows of an [N, C] array of zeros: every
  pair (e, k) of an [E, K] array of row numbers adds row `e` into the row it names. Multiplying by a [C, C] matrix
  `wt` is linear in the row, so it may be done to each row before the scatter or once to the accumulated rows after
  it: at entry (n, q), with S the set of pairs that land on row n,

      0 + ∑_{(e,k) ∈ S} ∑_c a(e, c) * wt(c, q)   =   ∑_c (0 + ∑_{(e,k) ∈ S} a(e, c)) * wt(c, q).

  On the extended reals this exchange of sums with a product is NOT a law (a sum meeting both infinities is not
  distributed over), and it is one as soon as every entry of `a` and of `wt` is a real number: then both sides are the
  same double sum of real products.
-/
import proofs.«139676_j10299331576565_2_alg».proof.Proof.LibScatterStack
import proofs.«139676_j10299331576565_2_alg».proof.Proof.LibRealSums

noncomputable section

open scoped BigOperators

namespace Cert.ProjectScatter

open Idealize.ShloMosaic Idealize.ShloMosaic.ValueIdx Cert.LibRealSums Cert.LibScatterStack

variable {N E K C w : Nat}

/-- Over real entries: the scatter-add of the projected rows is the projection of the scatter-added rows. The updates
    `ua`, `up` are the rows `a` and their projections `p` repeated along the K axis, `z` an array of zeros. -/
theorem scatter_projected (d : ScatterDims ⟨2, ![N, C]⟩ ⟨3, ![E, K, 1]⟩ ⟨3, ![E, K, C]⟩)
    (hu : d.updateWindowDims = [2]) (hi : d.insertedWindowDims = [0]) (hs : d.scatterDimsToOperandDims = [0])
    (hv : d.indexVectorDim = 2) (z : FVec Ideal ⟨2, ![N, C]⟩ .f32) (hz : ∀ i, z i = 0)
    (idx : IVec ⟨3, ![E, K, 1]⟩ w) (a p : FVec Ideal ⟨2, ![E, C]⟩ .f32) (wt : FVec Ideal ⟨2, ![C, C]⟩ .f32)
    (ha : ∀ i, IsReal (a i)) (hw : ∀ i, IsReal (wt i))
    (hp : ∀ e q, p (ix2 e q) = ∑ k : Fin C, a (ix2 e k) * wt (ix2 k q))
    (ua up : FVec Ideal ⟨3, ![E, K, C]⟩ .f32) (hua : ∀ e k c, ua (ix3 e k c) = a (ix2 e c))
    (hup : ∀ e k c, up (ix3 e k c) = p (ix2 e c)) (n : Fin N) (q : Fin C) :
    Host.scatterAdd d z idx up (ix2 n q) = ∑ k : Fin C, Host.scatterAdd d z idx ua (ix2 n k) * wt (ix2 k q) := by
  simp only [scatterAdd_apply d hu hi hs hv, hz, hua, hup, hp]
  have h := agg_law (hits idx n) (fun (pr : Fin E × Fin K) (k : Fin C) => a (ix2 pr.1 k)) (fun k => wt (ix2 k q)) 1
    (fun _ _ => ha _) (fun _ => hw _) isReal_one
  simpa only [mul_one] using h

end Cert.ProjectScatter

end
-- ==== Proof.LibPreDecode.lean ====
/-
  A precondition's conjuncts read back, element by element.

  A precondition written as a conjunction of `jnp.all` tests prints as a chain of `and`s of whole-array reductions by
  `and`, and the claim says the chain is 1. Each reduction that is 1 met only 1s (the library's `Host.reduce_andi_all`);
  what an element being 1 says depends on the test:

  * `|x| < +inf` on a float array, read at the extended reals: the entry is a real number (the only extended reals
    whose absolute value is not the top element) — `all_real`;
  * `(m == 0) | (m == 1)` on an integer array: the entry is the word 0 or the word 1 — `all_zero_or_one` —, and such a
    word converted to a float is the real 0 or 1 — `sitofp_zero_or_one` —, so that it is its own square
    (`mask_idem`).

  Everything is stated over any shapes, the compared constants as arrays with their entries given, so that a
  printed `broadcast_in_dim` of a scalar constant is supplied by `fun _ => rfl`.
-/
import Idealize.ShloMosaic.Lib.ReduceAll
import Idealize.ShloMosaic.PureOps.Ideal
import Idealize.ShloMosaic.PureOps.Ideal.Laws

noncomputable section

namespace Cert.LibPreDecode

open Idealize.ShloMosaic

/-- The f32 word of +inf denotes the top extended real. -/
theorem ofBits_inf : FloatOps.ofBits (F := Ideal) .f32 0x7F800000#32 = (⊤ : EReal) := by
  simp [Ideal.ofBits, Ideal.ieee]

/-- An extended real whose absolute value lies strictly below the top is a real number. -/
theorem exists_real_of_abs_lt_top (x : EReal) (h : max x (-x) < ⊤) : ∃ r : ℝ, x = (r : EReal) := by
  induction x using EReal.rec with
  | bot => simp at h
  | coe r => exact ⟨r, rfl⟩
  | top => simp at h

/-- One entry of the test `|x| < +inf` being 1 says the entry is a real number. -/
theorem real_of_abs_lt_inf (x y : Ideal .f32) (hy : y = FloatOps.ofBits (F := Ideal) .f32 0x7F800000#32)
    (h : FloatOps.cmpf (F := Ideal) .olt (FloatOps.hostAbsf x) y = 1#1) : ∃ r : ℝ, x = (r : EReal) := by
  rw [hy, ofBits_inf, Ideal.hostAbsf_def, Ideal.cmpf_def, Ideal.absf_def] at h
  refine exists_real_of_abs_lt_top x ?_
  by_contra hlt
  simp [Ideal.cmp, hlt] at h

/-- `jnp.all(|x| < inf)` is 1: every entry of `x` is a real number. -/
theorem all_real {s t u : Shape} {axes : List (Fin s.rank)} [Subsingleton t.Idx]
    (x inf : FVec Ideal s .f32) (hinf : ∀ i, inf i = FloatOps.ofBits (F := Ideal) .f32 0x7F800000#32)
    (init : u.Idx → BitVec 1) (h : s.ReducesTo axes t) (hu : 0 < u.numel) (j : t.Idx)
    (e : Host.reduce IntOp.andi (cmpf .olt (Host.absf x) inf) init h hu j = 1#1) (i : s.Idx) :
    ∃ r : ℝ, x i = (r : EReal) :=
  real_of_abs_lt_inf (x i) (inf i) (hinf i) (Host.reduce_andi_all _ init h hu j e i)

/-- `jnp.all((m == 0) | (m == 1))` is 1: every entry of `m` is the word 0 or the word 1. -/
theorem all_zero_or_one {s t u : Shape} {axes : List (Fin s.rank)} [Subsingleton t.Idx] {w : Nat}
    (m z o : IVec s w) (a b : BitVec w) (hz : ∀ i, z i = a) (ho : ∀ i, o i = b)
    (init : u.Idx → BitVec 1) (h : s.ReducesTo axes t) (hu : 0 < u.numel) (j : t.Idx)
    (e : Host.reduce IntOp.andi (ori (cmpi .eq m z) (cmpi .eq m o)) init h hu j = 1#1) (i : s.Idx) :
    m i = a ∨ m i = b := by
  have h1 : IntOp.ori (IntOp.cmpi .eq (m i) (z i)) (IntOp.cmpi .eq (m i) (o i)) = 1#1 :=
    Host.reduce_andi_all _ init h hu j e i
  rcases IntOp.ori_eq_one.1 h1 with h2 | h2
  · exact Or.inl ((IntOp.cmpi_eq.1 h2).trans (hz i))
  · exact Or.inr ((IntOp.cmpi_eq.1 h2).trans (ho i))

/-- A 32-bit word that is 0 or 1, converted to a float, is the real 0 or the real 1. -/
theorem sitofp_zero_or_one (b : BitVec 32) (h : b = 0#32 ∨ b = 1#32) :
    FloatOps.sitofp (F := Ideal) .f32 b = ((0 : ℝ) : EReal) ∨ FloatOps.sitofp (F := Ideal) .f32 b = ((1 : ℝ) : EReal) := by
  rcases h with rfl | rfl
  · left; show (((0#32 : BitVec 32).toInt : ℝ) : EReal) = _; norm_num
  · right; show (((1#32 : BitVec 32).toInt : ℝ) : EReal) = _; norm_num

/-- A mask entry that is the real 0 or 1 is its own square. -/
theorem mask_idem (x : EReal) (h : x = ((0 : ℝ) : EReal) ∨ x = ((1 : ℝ) : EReal)) : x * x = x := by
  rcases h with rfl | rfl <;> simp

end Cert.LibPreDecode

end
-- ==== Proof.FiniteEntries.lean ====
/-
  What the precondition says, entry by entry, and what follows for the sums of gathered rows.

  The precondition is `all(|x| < inf) & all(|weight| < inf)`, equal to 1. Each of the two reductions by `and` that is 1
  met only 1s, and an entry whose absolute value lies strictly below +inf on the extended reals is a real number: every
  entry of `x` and of `weight` is real. A gathered array reads entries of `x`, whatever the indices are, and a sum of
  them started from a real number is real: so every entry of the per-edge sums of gathered rows is real.
-/
import proofs.«139676_j10299331576565_2_alg».proof.Pre_finite_inputs
import proofs.«139676_j10299331576565_2_alg».proof.Proof.LibPreDecode
import proofs.«139676_j10299331576565_2_alg».proof.Proof.LibRealSums
import Idealize.ShloMosaic.Lib.ReduceAll
import Idealize.ShloMosaic.Lib.ValueIdx

noncomputable section

open scoped BigOperators

namespace Cert.FiniteEntries

open Idealize.ShloMosaic Cert.LibRealSums

instance : Subsingleton (⟨0, ![]⟩ : Shape).Idx := ⟨fun _ _ => funext fun d => d.elim0⟩

/-- The precondition read back: every entry of the two float arguments is a real number. -/
theorem real_entries [Cert.Pre_finite_inputs.Facts] (x0 : FVec Ideal Cert.Pre_finite_inputs.S50000x256 .f32)
    (x1 : IVec Cert.Pre_finite_inputs.S20000x32 32) (x2 : FVec Ideal Cert.Pre_finite_inputs.S256x256 .f32)
    (h : Cert.Pre_finite_inputs.fn (F := Ideal) x0 x1 x2 = fun _ => 1#1) :
    (∀ i, IsReal (x0 i)) ∧ (∀ i, IsReal (x2 i)) := by
  have h0 := congrFun h ValueIdx.ix0
  dsimp only [Cert.Pre_finite_inputs.fn] at h0
  obtain ⟨ha, hb⟩ := IntOp.andi_eq_one.1 h0
  exact ⟨fun i => Cert.LibPreDecode.all_real x0 _ (fun _ => rfl) _ _ _ _ ha i,
    fun i => Cert.LibPreDecode.all_real x2 _ (fun _ => rfl) _ _ _ _ hb i⟩

/-- A host sum, along any axes and from a real initial value, of rows gathered out of an array of real numbers has
    real entries: a gather only reads entries of its operand. -/
theorem isReal_reduceAdd_gather {s si t u v : Shape} {w : Nat} {axes : List (Fin t.rank)} (gd : GatherDims s si t)
    (x : FVec Ideal s .f32) (idx : IVec si w) (hx : ∀ i, IsReal (x i)) (init : FVec Ideal v .f32)
    (hinit : ∀ i, IsReal (init i)) (h : t.ReducesTo axes u) (hv : 0 < v.numel) (j : u.Idx) :
    IsReal (Host.reduceAdd (Host.gather gd x idx) init h hv j) := by
  simp only [Host.reduceAdd, Ideal.hostReduceAdd_def]
  unfold Ideal.hostReduceAdd
  exact isReal_add (hinit _) (isReal_sum _ _ fun i _ => hx _)

end Cert.FiniteEntries

end
-- ==== Proof.SameResult.lean ====
/-
  The two programs compute one function.

  Both gather the rows of `x` that the node numbers name, sum them per hyperedge, scatter-add the sums back to the rows
  the same node numbers name, multiply by the weight matrix and rectify. The reference multiplies the accumulated
  [50000, 256] array; the kernel program multiplies the [20000, 256] edge sums first and scatters the products. The
  row numbers, the edge sums, the zeros and the rectifier are the same terms on both sides, so the two results differ only
  in where the product stands, and `ProjectScatter.scatter_projected` moves it across the scatter — over real
  entries: the edge sums are real because `x` is (sums of gathered entries), the weights are real by hypothesis.
-/
import proofs.«139676_j10299331576565_2_alg».proof.Proof.HostSide
import proofs.«139676_j10299331576565_2_alg».proof.Proof.ProjectScatter
import proofs.«139676_j10299331576565_2_alg».proof.Proof.FiniteEntries
import proofs.«139676_j10299331576565_2_alg».proof.Proof.Gen.ReferenceIdeal.Read

noncomputable section

open scoped BigOperators

namespace Cert.SameResult

open Idealize.ShloMosaic Idealize.ShloMosaic.ValueIdx Cert.LibRealSums
open Cert.KernelIdeal.HostSide Cert.KernelIdeal.EdgeProduct

/-- Every edge sum of an array of real numbers is real. -/
theorem edgeSums_real (x0 : FVec Ideal Cert.KernelIdeal.S50000x256 .f32) (x1 : IVec Cert.KernelIdeal.S20000x32 32)
    (h0 : ∀ i, IsReal (x0 i)) (i : Cert.KernelIdeal.S20000x256.Idx) : IsReal (edgeSums x0 x1 i) :=
  Cert.FiniteEntries.isReal_reduceAdd_gather _ x0 _ h0 _ (fun _ => isReal_ofBits_zero) _ _ i

/-- The kernel program's result is the reference's last stage, as functions of the three argument arrays, when the two
    float arguments hold real numbers. -/
theorem result_eq (x0 : FVec Ideal Cert.KernelIdeal.S50000x256 .f32) (x1 : IVec Cert.KernelIdeal.S20000x32 32)
    (x2 : FVec Ideal Cert.KernelIdeal.S256x256 .f32) (h0 : ∀ i, IsReal (x0 i)) (h2 : ∀ i, IsReal (x2 i)) :
    result x1 (rowsTimes (edgeSums x0 x1) x2) = Cert.ReferenceIdeal.Read.val_main_v19 (F := Ideal) x0 x1 x2 := by
  funext i
  obtain ⟨n, q, rfl⟩ : ∃ (n : Fin 50000) (q : Fin 256), i = ix2 n q := ⟨i 0, i 1, eq_ix2 i⟩
  rw [Cert.ReferenceIdeal.Read.val_main_v19_apply, Cert.ReferenceIdeal.Read.val_main_v18_apply]
  -- the product moved across the scatter
  have hB : scattered x1 (rowsTimes (edgeSums x0 x1) x2) (ix2 n q)
      = ∑ k : Fin 256, scattered x1 (edgeSums x0 x1) (ix2 n k) * x2 (ix2 k q) :=
    Cert.ProjectScatter.scatter_projected Cert.KernelIdeal.scatter_S50000x256_S20000x32x1_S20000x32x256_2_0_0_2
      rfl rfl rfl rfl zeros zeros_apply (rowNumbers x1) (edgeSums x0 x1) (rowsTimes (edgeSums x0 x1) x2) x2
      (edgeSums_real x0 x1 h0) h2 (fun _ _ => rfl) (spread (edgeSums x0 x1)) (spread (rowsTimes (edgeSums x0 x1) x2))
      (spread_apply _) (spread_apply _) n q
  -- the scattered edge sums, the zeros: the same terms in the two programs
  have hC : scattered x1 (edgeSums x0 x1) = Cert.ReferenceIdeal.Read.val_main_v17 (F := Ideal) x0 x1 := rfl
  have hE : zeros = Cert.ReferenceIdeal.Read.val_main_call0_v0 (F := Ideal) := rfl
  have hl : ∀ k : Fin 256, Cert.ReferenceIdeal.Read.lidx_main_v18 (ix2 n q) k = ix2 n k := fun k =>
    funext fun a => Fin.ext (by match a with | ⟨0, _⟩ => rfl | ⟨1, _⟩ => rfl)
  have hr : ∀ k : Fin 256, Cert.ReferenceIdeal.Read.ridx_main_v18 (ix2 n q) k = ix2 k q := fun k =>
    funext fun a => Fin.ext (by match a with | ⟨0, _⟩ => rfl | ⟨1, _⟩ => rfl)
  show FloatOps.maximumf (scattered x1 (rowsTimes (edgeSums x0 x1) x2) (ix2 n q)) (zeros (ix2 n q)) = _
  rw [hB, hC, hE]
  simp only [hl, hr]

end Cert.SameResult

end
-- ==== Proof.lean ====
/-
  A hypergraph convolution layer: relu((scatter-add of per-edge sums of gathered rows) · weight), against a kernel program
  that multiplies the per-edge sums by the weight matrix first (a tiled matrix product, 5000 rows at a time) and
  scatter-adds the products.

  The three frames: the two kernel programs' are their generated frame certificates; the reference has no kernel, and its
  frame is its generated run with the result dropped. The idealization rewrote no operation, so it is preserved trivially.
  The algebraic claim: on the extended reals the kernel program ends with `HostSide.result` of the node numbers and of the
  product of the edge sums by the weights (`HostSide.run`: the frame run read back, the product's array at its closed form
  `EdgeProduct.final`), the reference with its last stage `Read.val_main_v19` of the same arguments (its generated run), and
  the two are one function as soon as `x` and `weight` hold real numbers (`SameResult.result_eq`: the product moved across
  the scatter-add, which is a law over the reals and not over the extended reals) — which is what the precondition says,
  entry by entry (`FiniteEntries.real_entries`).
-/
import proofs.«139676_j10299331576565_2_alg».proof.Defs
import proofs.«139676_j10299331576565_2_alg».proof.Proof.Gen.Kernel
import proofs.«139676_j10299331576565_2_alg».proof.Proof.Gen.Kernel.Skeleton
import proofs.«139676_j10299331576565_2_alg».proof.Proof.Gen.Kernel.Launch
import proofs.«139676_j10299331576565_2_alg».proof.Proof.Gen.Kernel.Points
import proofs.«139676_j10299331576565_2_alg».proof.Proof.Gen.Kernel.Frame
import proofs.«139676_j10299331576565_2_alg».proof.Proof.Gen.KernelIdeal
import proofs.«139676_j10299331576565_2_alg».proof.Proof.Gen.KernelIdeal.Skeleton
import proofs.«139676_j10299331576565_2_alg».proof.Proof.Gen.KernelIdeal.Launch
import proofs.«139676_j10299331576565_2_alg».proof.Proof.Gen.KernelIdeal.Points
import proofs.«139676_j10299331576565_2_alg».proof.Proof.Gen.KernelIdeal.Frame
import proofs.«139676_j10299331576565_2_alg».proof.Proof.Gen.ReferenceIdeal
import proofs.«139676_j10299331576565_2_alg».proof.Proof.Gen.Pre_finite_inputs
import proofs.«139676_j10299331576565_2_alg».proof.Proof.Gen.ReferenceIdeal.Run
import proofs.«139676_j10299331576565_2_alg».proof.Proof.Gen.ReferenceIdeal.Read
import proofs.«139676_j10299331576565_2_alg».proof.Proof.KernelRun
import proofs.«139676_j10299331576565_2_alg».proof.Proof.SameResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's last stage of the kernel program's argument arrays: the kernel program by
    its run and the equality of the two functions over real entries, the reference by its run from arrays that agree. -/
theorem algebraic : Cert.algebraic_KernelIdeal_ReferenceIdeal := by
  intro m ρ m' ρ' hpre hagree
  refine ⟨fun c => Cert.ReferenceIdeal.Read.val_main_v19 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.HostSide.run m ρ)
    obtain ⟨h0, h2⟩ := Cert.FiniteEntries.real_entries _ _ _ (hpre c)
    exact Cert.SameResult.result_eq _ _ _ h0 h2
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact Cert.ReferenceIdeal.Read.val_main_v19_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
